-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000 : Shape := ⟨1, ![400000]⟩
abbrev S100000x192 : Shape := ⟨2, ![100000, 192]⟩
abbrev S192x128 : Shape := ⟨2, ![192, 128]⟩
abbrev S_ : Shape := ⟨0, ![]⟩

class Facts : Prop where
  bcast_S_S400000 : S_.BroadcastsInDim S400000 (![] : Fin 0 → Fin S400000.rank)
  reducesTo_S400000_S_d0 : S400000.ReducesTo [0] S_
  h_S_ : 0 < S_.numel
  bcast_S_S100000x192 : S_.BroadcastsInDim S100000x192 (![] : Fin 0 → Fin S100000x192.rank)
  reducesTo_S100000x192_S_d0_1 : S100000x192.ReducesTo [0, 1] S_
  bcast_S_S192x128 : S_.BroadcastsInDim S192x128 (![] : Fin 0 → Fin S192x128.rank)
  reducesTo_S192x128_S_d0_1 : S192x128.ReducesTo [0, 1] S_

variable [Facts]

def fn {F : FTy → Type} [FloatOps F] (main_arg0 : IVec S400000 32) (main_arg1 : IVec S400000 32) (main_arg2 : FVec F S400000 .f32) (main_arg3 : FVec F S100000x192 .f32) (main_arg4 : FVec F S192x128 .f32) : IVec S_ 1 :=
  let main_v0 : FVec F S400000 .f32 := Host.absf main_arg2
  let main_cst : FVec F S_ .f32 := constant S_ .f32 0x7F800000#32
  let main_v1 : FVec F S400000 .f32 := broadcastInDim S400000 ![] bcast_S_S400000 main_cst
  let main_v2 : IVec S400000 1 := cmpf .olt main_v0 main_v1
  let main_c : IVec S_ 1 := constantI S_ 1 1#1
  let main_v3 : IVec S_ 1 := (fun x v => Host.reduce IntOp.andi x v reducesTo_S400000_S_d0 h_S_) main_v2 main_c
  let main_v4 : FVec F S100000x192 .f32 := Host.absf main_arg3
  let main_cst_0 : FVec F S_ .f32 := constant S_ .f32 0x7F800000#32
  let main_v5 : FVec F S100000x192 .f32 := broadcastInDim S100000x192 ![] bcast_S_S100000x192 main_cst_0
  let main_v6 : IVec S100000x192 1 := cmpf .olt main_v4 main_v5
  let main_c_1 : IVec S_ 1 := constantI S_ 1 1#1
  let main_v7 : IVec S_ 1 := (fun x v => Host.reduce IntOp.andi x v reducesTo_S100000x192_S_d0_1 h_S_) main_v6 main_c_1
  let main_v8 : IVec S_ 1 := andi main_v3 main_v7
  let main_v9 : FVec F S192x128 .f32 := Host.absf main_arg4
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  main_v13
-- ==== Kernel.lean ====
abbrev S400000 : Shape := ⟨1, ![400000]⟩
abbrev S100000x192 : Shape := ⟨2, ![100000, 192]⟩
abbrev S192x128 : Shape := ⟨2, ![192, 128]⟩
abbrev S100000x128 : Shape := ⟨2, ![100000, 128]⟩
abbrev S4000x192 : Shape := ⟨2, ![4000, 192]⟩
abbrev S4000x128 : Shape := ⟨2, ![4000, 128]⟩
abbrev S400000x1 : Shape := ⟨2, ![400000, 1]⟩
abbrev S_ : Shape := ⟨0, ![]⟩
abbrev S400000x128 : Shape := ⟨2, ![400000, 128]⟩

abbrev nBuf : Space → Nat
  | .hbm => 22
  | .vmem => 5
  | .smem => 0
  | _ => 0

abbrev bufTy : (tb : Table) → Fin (tcTables nBuf tb) → BufTy
  | .hbm, ⟨0, _⟩ => ⟨S400000, .i32⟩
  | .hbm, ⟨1, _⟩ => ⟨S400000, .i32⟩
  | .hbm, ⟨2, _⟩ => ⟨S400000, .f32⟩
  | .hbm, ⟨3, _⟩ => ⟨S100000x192, .f32⟩
  | .hbm, ⟨4, _⟩ => ⟨S192x128, .f32⟩
  | .hbm, ⟨5, _⟩ => ⟨S100000x128, .f32⟩
  | .hbm, ⟨6, _⟩ => ⟨S400000x1, .f32⟩
  | .hbm, ⟨7, _⟩ => ⟨S_, .i32⟩
  | .hbm, ⟨8, _⟩ => ⟨S400000, .i32⟩
  | .hbm, ⟨9, _⟩ => ⟨S400000, .i1⟩
  | .hbm, ⟨10, _⟩ => ⟨S_, .i32⟩
  | .hbm, ⟨11, _⟩ => ⟨S400000, .i32⟩
  | .hbm, ⟨12, _⟩ => ⟨S400000, .i32⟩
  | .hbm, ⟨13, _⟩ => ⟨S400000, .i32⟩
  | .hbm, ⟨14, _⟩ => ⟨S400000x1, .i32⟩
  | .hbm, ⟨15, _⟩ => ⟨S400000x128, .f32⟩
  | .hbm, ⟨16, _⟩ => ⟨S400000x128, .f32⟩
  | .hbm, ⟨17, _⟩ => ⟨S400000x128, .f32⟩
  | .hbm, ⟨18, _⟩ => ⟨S_, .f32⟩
  | .hbm, ⟨19, _⟩ => ⟨S100000x128, .f32⟩
  | .hbm, ⟨20, _⟩ => ⟨S400000x1, .i32⟩
  | .hbm, ⟨21, _⟩ => ⟨S100000x128, .f32⟩
  | .local _ .vmem, ⟨0, _⟩ => ⟨S4000x192, .f32⟩
  | .local _ .vmem, ⟨1, _⟩ => ⟨S4000x192, .f32⟩
  | .local _ .vmem, ⟨2, _⟩ => ⟨S192x128, .f32⟩
  | .local _ .vmem, ⟨3, _⟩ => ⟨S4000x128, .f32⟩
  | .local _ .vmem, ⟨4, _⟩ => ⟨S4000x128, .f32⟩
  | _, _ => ⟨S400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4000x192_S4000x192_0_0 : ∀ a, (![0, 0] : Fin 2 → Nat) a + S4000x192.size a ≤ S4000x192.size a
  h_S4000x192 : 0 < S4000x192.numel
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  inb_S4000x128_S4000x128_0_0 : ∀ a, (![0, 0] : Fin 2 → Nat) a + S4000x128.size a ≤ S4000x128.size a
  h_S4000x128 : 0 < S4000x128.numel
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  dot_S4000x192_S192x128_S4000x128_1_0_0_1_n_n_wf : DotDims.WF S4000x192 S192x128 S4000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x192.size a ≤ S100000x192.size a
  hwx0_0 : ∀ i : grid0.Coords, EltTy.bits .f32 = 32 ∨ (Rect.block (s := S100000x192) S4000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x128.size a ≤ S192x128.size a
  hwx0_1 : ∀ i : grid0.Coords, EltTy.bits .f32 = 32 ∨ (Rect.block (s := S192x128) S192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)

variable [Facts₀]

def dot_S4000x192_S192x128_S4000x128_1_0_0_1_n_n : DotDims S4000x192 S192x128 S4000x128 where
  lhsContracting := [1]
  rhsContracting := [0]
  lhsNonContracting := [0]
  rhsNonContracting := [1]
  lhsBatch := []
  rhsBatch := []
  wf := dot_S4000x192_S192x128_S4000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf

abbrev win0_0 : Pipeline.Window sig grid0 :=
  Pipeline.Window.ofSpec (Memref.whole main_arg3) S4000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S400000 : Shape := ⟨1, ![400000]⟩
abbrev S100000x192 : Shape := ⟨2, ![100000, 192]⟩
abbrev S192x128 : Shape := ⟨2, ![192, 128]⟩
abbrev S400000x1 : Shape := ⟨2, ![400000, 1]⟩
abbrev S_ : Shape := ⟨0, ![]⟩
abbrev S400000x192 : Shape := ⟨2, ![400000, 192]⟩
abbrev S100000x128 : Shape := ⟨2, ![100000, 128]⟩

abbrev nBuf : Space → Nat
  | .hbm => 22
  | .vmem => 0
  | .smem => 0
  | _ => 0

abbrev bufTy : (tb : Table) → Fin (tcTables nBuf tb) → BufTy
  | .hbm, ⟨0, _⟩ => ⟨S400000, .i32⟩
  | .hbm, ⟨1, _⟩ => ⟨S400000, .i32⟩
  | .hbm, ⟨2, _⟩ => ⟨S400000, .f32⟩
  | .hbm, ⟨3, _⟩ => ⟨S100000x192, .f32⟩
  | .hbm, ⟨4, _⟩ => ⟨S192x128, .f32⟩
  | .hbm, ⟨5, _⟩ => ⟨S400000x1, .f32⟩
  | .hbm, ⟨6, _⟩ => ⟨S_, .i32⟩
  | .hbm, ⟨7, _⟩ => ⟨S400000, .i32⟩
  | .hbm, ⟨8, _⟩ => ⟨S400000, .i1⟩
  | .hbm, ⟨9, _⟩ => ⟨S_, .i32⟩
  | .hbm, ⟨10, _⟩ => ⟨S400000, .i32⟩
  | .hbm, ⟨11, _⟩ => ⟨S400000, .i32⟩
  | .hbm, ⟨12, _⟩ => ⟨S400000, .i32⟩
  | .hbm, ⟨13, _⟩ => ⟨S400000x1, .i32⟩
  | .hbm, ⟨14, _⟩ => ⟨S400000x192, .f32⟩
  | .hbm, ⟨15, _⟩ => ⟨S400000x192, .f32⟩
  | .hbm, ⟨16, _⟩ => ⟨S400000x192, .f32⟩
  | .hbm, ⟨17, _⟩ => ⟨S_, .f32⟩
  | .hbm, ⟨18, _⟩ => ⟨S100000x192, .f32⟩
  | .hbm, ⟨19, _⟩ => ⟨S400000x1, .i32⟩
  | .hbm, ⟨20, _⟩ => ⟨S100000x192, .f32⟩
  | .hbm, ⟨21, _⟩ => ⟨S100000x128, .f32⟩
  | _, _ => ⟨S400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x192_0_1 : S400000x1.BroadcastsInDim S400000x192 (![0, 1] : Fin 2 → Fin S400000x192.rank)
  bcast_S_S100000x192 : S_.BroadcastsInDim S100000x192 (![] : Fin 0 → Fin S100000x192.rank)
  gather_S100000x192_S400000x1_S400000x192_1_0_n_n_0_1_1192_wf : GatherDims.WF S100000x192 S400000x1 S400000x192 [1] [0] [] [0] [] 1 ![1, 192]
  scatter_S100000x192_S400000x1_S400000x192_1_0_0_1_wf : ScatterDims.WF S100000x192 S400000x1 S400000x192 [1] [0] [0] 1
  dot_S100000x192_S192x128_S100000x128_1_0_0_1_n_n_wf : DotDims.WF S100000x192 S192x128 S100000x128 [1] [0] [0] [1] [] []

variable [Facts₀]

def gather_S100000x192_S400000x1_S400000x192_1_0_n_n_0_1_1192 : GatherDims S100000x192 S400000x1 S400000x192 where
  offsetDims := [1]
  collapsedSliceDims := [0]
  operandBatchingDims := []
  startIndicesBatchingDims := []
  startIndexMap := [0]
  indexVectorDim := 1
  sliceSizes := ![1, 192]
  wf := gather_S100000x192_S400000x1_S400000x192_1_0_n_n_0_1_1192_wf
def scatter_S100000x192_S400000x1_S400000x192_1_0_0_1 : ScatterDims S100000x192 S400000x1 S400000x192 where
  updateWindowDims := [1]
  insertedWindowDims := [0]
  scatterDimsToOperandDims := [0]
  indexVectorDim := 1
  wf := scatter_S100000x192_S400000x1_S400000x192_1_0_0_1_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf

class Facts : Prop extends Facts₀ where

variable [Facts]
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.RegionProduct.lean ====
import proofs.«139553_j69810398429356_1_alg».proof.Proof.Gen.KernelIdeal.Frame
import proofs.«139553_j69810398429356_1_alg».proof.Proof.LibPlainDot
import Idealize.ShloMosaic.Lib.Pipeline.Value
import Idealize.ShloMosaic.Lib.ValueIdx
import Idealize.ShloMosaic.Lib.Tactic

/-! The tiled region of the kernel computes the dense product y = x · theta.

The region walks 25 grid points; point t stages rows 4000 t … 4000 t + 3999 of x (all 192 columns) and the whole of
theta, multiplies them into a zero accumulator and writes the 4000 × 128 result back as rows 4000 t … 4000 t + 3999 of
the output array. Over the extended reals the narrowing of both operands before the multiplication is the identity
and the product into zero is the plain sum over the 192 contraction positions, so entry (n, o) of the array after
the region is the sum over l of x (n, l) · theta (l, o): the 25 row blocks tile the 100000 rows. -/

set_option maxRecDepth 16384

noncomputable section

open scoped BigOperators

namespace Cert.KernelIdeal.Dense

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The dense product of a 100000 × 192 and a 192 × 128 matrix of extended reals, entry by entry. -/
def product (x : S100000x192.Idx → EReal) (θ : S192x128.Idx → EReal) : S100000x128.Idx → EReal :=
  fun i => ∑ l : Fin 192, x (ix2 (i 0) l) * θ (ix2 l (i 1))

theorem zero_offsets : (![0, 0] : Fin 2 → Nat) = fun _ => 0 := funext fun a => by fin_cases a <;> rfl

/-- What the body stores, at entry (p, q) of its block: the sum over the contraction positions of the staged row p
    of x against the staged column q of theta. -/
theorem pay_apply (x0 : Vec Ideal S4000x192 .f32) (x1 : Vec Ideal S192x128 .f32) (p : Fin 4000) (q : Fin 128) :
    k0_pay1 (F := Ideal) x0 x1 (ix2 p q) = ∑ l : Fin 192, x0 (ix2 p l) * x1 (ix2 l q) := by
  unfold k0_pay1
  exact Cert.LibPlainDot.matmul_zero_apply none x0 x1 p q

/-- The block-index maps over the grid: x's and the output's row block is the point's number, every column block
    and both of theta's are zero. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The staged block of x at point t is rows 4000 t … 4000 t + 3999 of x. -/
theorem x_block_apply (c : Dev nD) (t : Fin cfg0.N) (y : S4000x192.Idx) (k : S100000x192.Idx)
    (hk0 : (k 0).val = t.val * 4000 + (y 0).val) (hk1 : (k 1).val = (y 1).val) :
    (iblk m c 0 t : Vec Ideal S4000x192 .f32) y
      = (m ((c : Thread nD τ).loc main_arg3) : S100000x192.Idx → EReal) k := by
  obtain ⟨e00, e01, -, -, -, -⟩ := index_maps t
  unfold iblk
  rw [View.read_apply]
  show (m ((c : Thread nD τ).loc main_arg3) : S100000x192.Idx → EReal) _ = _
  congr 1
  funext a
  apply Fin.ext
  match a with
  | ⟨0, _⟩ => show win0_0.index t (0 : Fin 2) * 4000 + 1 * (y 0).val = (k 0).val; rw [e00, hk0]; omega
  | ⟨1, _⟩ => show win0_0.index t (1 : Fin 2) * 192 + 1 * (y 1).val = (k 1).val; rw [e01, hk1]; omega

/-- The staged block of theta at every point is theta. -/
theorem theta_block_apply (c : Dev nD) (t : Fin cfg0.N) (y : S192x128.Idx) :
    (iblk m c 1 t : Vec Ideal S192x128 .f32) y
      = (m ((c : Thread nD τ).loc main_arg4) : S192x128.Idx → EReal) y := by
  obtain ⟨-, -, e10, e11, -, -⟩ := index_maps t
  unfold iblk
  rw [View.read_apply]
  show (m ((c : Thread nD τ).loc main_arg4) : S192x128.Idx → EReal) _ = _
  congr 1
  funext a
  apply Fin.ext
  match a with
  | ⟨0, _⟩ => show win0_1.index t (0 : Fin 2) * 192 + 1 * (y 0).val = (y 0).val; rw [e10]; omega
  | ⟨1, _⟩ => show win0_1.index t (1 : Fin 2) * 128 + 1 * (y 1).val = (y 1).val; rw [e11]; omega

/-- A block of rows of the product: when x0 is rows 4000 b … of X and x1 is Θ, the body's result at j is the
    product of X and Θ at the entry 4000 b rows below j. -/
theorem block_product (x0 : Vec Ideal S4000x192 .f32) (x1 : Vec Ideal S192x128 .f32)
    (X : S100000x192.Idx → EReal) (Θ : S192x128.Idx → EReal) (b : Nat)
    (h0 : ∀ (y : S4000x192.Idx) (k : S100000x192.Idx), (k 0).val = b * 4000 + (y 0).val → (k 1).val = (y 1).val → x0 y = X k)
    (h1 : ∀ y : S192x128.Idx, x1 y = Θ y)
    (j : S4000x128.Idx) (i : S100000x128.Idx) (hi0 : (i 0).val = b * 4000 + (j 0).val) (hi1 : (i 1).val = (j 1).val) :
    k0_pay1 (F := Ideal) x0 x1 j = product X Θ i := by
  obtain ⟨p, q, rfl⟩ : ∃ (p : Fin 4000) (q : Fin 128), j = ix2 p q := ⟨j 0, j 1, eq_ix2 j⟩
  have hq : i 1 = q := Fin.ext hi1
  rw [pay_apply]
  unfold product
  refine Finset.sum_congr rfl fun l _ => ?_
  rw [h0 (ix2 p l) (ix2 (i 0) l) hi0 rfl, h1, hq]

/-- What point t writes back is block t of the product of x and theta. -/
theorem flushed_eq (c : Dev nD) (t : Fin cfg0.N) :
    (dats m 0 c).flushed 2 t = ((cfg0.win 2).blk t).view.read (Elt Ideal)
      (product (m ((c : Thread nD τ).loc main_arg3)) (m ((c : Thread nD τ).loc main_arg4))) := by
  show (cfg0.win 2).cut (grid0.coords t) ((dats m 0 c).after 2 t) = _
  rw [after0_2]
  unfold out0_2
  rw [View.canon_unit_zero zero_offsets]
  simp only [View.ld_unit_zero (S := S4000x192) zero_offsets, View.ld_unit_zero (S := S192x128) zero_offsets]
  obtain ⟨-, -, -, -, e20, e21⟩ := index_maps t
  funext j
  show k0_pay1 (F := Ideal) (iblk m c 0 t) (iblk m c 1 t) j
      = product (m ((c : Thread nD τ).loc main_arg3)) (m ((c : Thread nD τ).loc main_arg4)) (((cfg0.win 2).blk t).view.emb j)
  refine block_product (iblk m c 0 t) (iblk m c 1 t) (m ((c : Thread nD τ).loc main_arg3)) (m ((c : Thread nD τ).loc main_arg4))
    t.val (fun y k hk0 hk1 => x_block_apply m c t y k hk0 hk1) (fun y => theta_block_apply m c t y) j
    (((cfg0.win 2).blk t).view.emb j) ?_ ?_
  · show win0_2.index t (0 : Fin 2) * 4000 + 1 * (j 0).val = t.val * 4000 + (j 0).val
    rw [e20]; omega
  · show win0_2.index t (1 : Fin 2) * 128 + 1 * (j 1).val = (j 1).val
    rw [e21]; omega

/-- An entry of the output array is in point t's block iff each coordinate is in the block's range on its axis. -/
theorem mem_block (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v0).slice (win0_2.rect t)).set ↔ _
  rw [View.set_slice_whole, Rect.mem_set_unit]
  exact Iff.rfl

/-- The 25 row blocks tile the output: row n is in the block of point n / 4000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 25 := N_0
  obtain ⟨t, ht⟩ : ∃ t : Fin cfg0.N, t.val = (i 0).val / 4000 :=
    ⟨⟨(i 0).val / 4000, by show (i 0).val / 4000 < grid0.N; rw [hN]; omega⟩, rfl⟩
  obtain ⟨-, -, -, -, e20, e21⟩ := index_maps t
  refine ⟨t, flush0_2 t, ?_⟩
  rw [mem_block]
  intro a
  match a with
  | ⟨0, _⟩ =>
    show win0_2.index t (0 : Fin 2) * 4000 ≤ (i 0).val ∧ (i 0).val < win0_2.index t (0 : Fin 2) * 4000 + 4000
    rw [e20, ht]; omega
  | ⟨1, _⟩ =>
    show win0_2.index t (1 : Fin 2) * 128 ≤ (i 1).val ∧ (i 1).val < win0_2.index t (1 : Fin 2) * 128 + 128
    rw [e21]; omega

/-- THE OUTPUT ARRAY AFTER THE REGION is the product of x and theta. -/
theorem final (c : Dev nD) : (dats m 0 c).arrAt 2 cfg0.N
    = product (m ((c : Thread nD τ).loc main_arg3)) (m ((c : Thread nD τ).loc main_arg4)) :=
  (dats m 0 c).arrAt_eq_of_cover 2 _ (fun t _ => flushed_eq m c t) covered

end Cert.KernelIdeal.Dense

end
-- ==== Proof.KernelRun.lean ====
import proofs.«139553_j69810398429356_1_alg».proof.Proof.RegionProduct
import Idealize.ShloMosaic.Lib.StableHlo.Run
import Idealize.ShloMosaic.Lib.Pipeline.FrameSuffix

/-! The kernel's whole run: the dense product by the tiled region, then the sparse matrix applied to it by the
host lines that follow.

After the region the output array holds y = x · theta and every argument is as launched. The sixteen host lines that
follow wrap the negative source indices, gather the rows of y they name, weight each row, and accumulate the weighted
rows into zeros at their target rows. Read as one function of the arrays, the result buffer ends at that sparse
application to y. -/

set_option maxRecDepth 16384

noncomputable section

namespace Cert.KernelIdeal.Whole

open Cert.KernelIdeal Cert.KernelIdeal.Gen Cert.KernelIdeal.Dense Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-- The host lines after the region as one function: the coordinate-form sparse matrix (targets a0, sources a1,
    weights a2) applied to the rows of y. -/
def sparseApply (a0 a1 : IVec S400000 32) (a2 : FVec Ideal S400000 .f32) (y : FVec Ideal S100000x128 .f32) :
    FVec Ideal S100000x128 .f32 :=
  Host.scatterAdd scatter_S100000x128_S400000x1_S400000x128_1_0_0_1
    (broadcastInDim S100000x128 ![] bcast_S_S100000x128 (constant S_ .f32 0x00000000#32))
    (broadcastInDim S400000x1 ![0] bcast_S400000_S400000x1_0 a0)
    (mulf (broadcastInDim S400000x128 ![0, 1] bcast_S400000x1_S400000x128_0_1
        (broadcastInDim S400000x1 ![0] bcast_S400000_S400000x1_0 a2))
      (Host.gather gather_S100000x128_S400000x1_S400000x128_1_0_n_n_0_1_1128 y
        (broadcastInDim S400000x1 ![0] bcast_S400000_S400000x1_0
          (select (cmpi .slt a1 (broadcastInDim S400000 ![] bcast_S_S400000 (constantI S_ 32 0#32)))
            (addi a1 (broadcastInDim S400000 ![] bcast_S_S400000 (constantI S_ 32 100000#32))) a1))))

/-- The buffer contents when the region is left: its three arrays as the region leaves them, every other buffer as
    it was entered. -/
def atExit (c : Dev nD) : Valuation τ sig (Elt Ideal) :=
  Pipeline.withArrays (cfgs 0).spec c (V0 m c) fun w => (dats m 0 c).arrAt w (cfgs 0).N

theorem exit_arg0 (c : Dev nD) : atExit m c (Proc.devRef .tc main_arg0) = m ((c : Thread nD τ).loc main_arg0) := by
  unfold atExit
  exact (Pipeline.withArrays_of_ne _ c (V0 m c) _ main_arg0
    (by exact (by decide : ∀ w, Pipeline.arrRef spec0 w ≠ main_arg0))).trans (V_main_arg0 m c)
theorem exit_arg1 (c : Dev nD) : atExit m c (Proc.devRef .tc main_arg1) = m ((c : Thread nD τ).loc main_arg1) := by
  unfold atExit
  exact (Pipeline.withArrays_of_ne _ c (V0 m c) _ main_arg1
    (by exact (by decide : ∀ w, Pipeline.arrRef spec0 w ≠ main_arg1))).trans (V_main_arg1 m c)
theorem exit_arg2 (c : Dev nD) : atExit m c (Proc.devRef .tc main_arg2) = m ((c : Thread nD τ).loc main_arg2) := by
  unfold atExit
  exact (Pipeline.withArrays_of_ne _ c (V0 m c) _ main_arg2
    (by exact (by decide : ∀ w, Pipeline.arrRef spec0 w ≠ main_arg2))).trans (V_main_arg2 m c)

/-- The region's output array, when the region is left, is the dense product. -/
theorem exit_y (c : Dev nD) : atExit m c (Proc.devRef .tc main_v0)
    = product (m ((c : Thread nD τ).loc main_arg3)) (m ((c : Thread nD τ).loc main_arg4)) := by
  unfold atExit
  exact (Pipeline.withArrays_arr spec0 launch0.win.arr_inj c _ _ 2).trans (final m c)

/-- The result buffer after the host lines: the sparse matrix applied to the dense product. -/
theorem tail_result (c : Dev nD) :
    Pipeline.afterTail₀ cfgs (dats m) 0 (V0 m) [hostOps1] c main_v13
      = sparseApply (m ((c : Thread nD τ).loc main_arg0)) (m ((c : Thread nD τ).loc main_arg1))
          (m ((c : Thread nD τ).loc main_arg2))
          (product (m ((c : Thread nD τ).loc main_arg3)) (m ((c : Thread nD τ).loc main_arg4))) := by
  unfold Pipeline.afterTail₀
  show StableHlo.after hostOps1 (atExit m c) (Proc.devRef .tc main_v13) = _
  after_results
  rw [exit_arg0, exit_arg1, exit_arg2, exit_y]
  rfl

/-- THE KERNEL'S RUN: every weakly fair execution terminates with the result at the sparse matrix applied to the
    dense product of x and theta, the five arguments unchanged. -/
theorem run : θ_run defs (onTc (τ := τ) (main (F := Ideal))) ⟨m, fun _ => 0, ρ⟩ fun r => ∀ c : Dev nD,
      r.2.mem ((c : Thread nD τ).loc main_v13)
        = sparseApply (m ((c : Thread nD τ).loc main_arg0)) (m ((c : Thread nD τ).loc main_arg1))
            (m ((c : Thread nD τ).loc main_arg2))
            (product (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v13 (Pipeline.mem_restRefs_of main_v13 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c)))⟩)
    (run_main m ρ)

end Cert.KernelIdeal.Whole

end
-- ==== Proof.LibEdgeSum.lean ====
import Idealize.ShloMosaic.PureOps.Ideal
import Idealize.ShloMosaic.PureOps.Ideal.Laws
import Idealize.ShloMosaic.Lib.ValueIdx
import Idealize.ShloMosaic.Lib.Pipeline.Value

/-! The neighbour sum of a graph layer over a doubled edge list, and scaling by a reciprocal.

Rows of features sit on N nodes; E undirected edges are given by their endpoints. Summing, for every node, the
rows of its neighbours can be done with one gather of rows and one accumulating scatter over the 2E directed
edges, or with two of each over the E edges, one per direction, added. This file reads the row gather and the
accumulating row scatter element by element over the extended reals, and proves the two ways equal as functions
on the [N, C] elements, for every extent. The last lemmas say that multiplying by the reciprocal of a nonzero
extended real is dividing by it. -/

noncomputable section

open scoped BigOperators

namespace EdgeSum

open Idealize.ShloMosaic Idealize.ShloMosaic.ValueIdx

variable {α : Type}

/-- The dimension numbers of a gather of whole rows: operand [N, C], start indices [E, 1], result [E, C];
    result row r is the operand row the r-th start index names. -/
structure IsRowGather {N E C : Nat} (d : GatherDims ⟨2, ![N, C]⟩ ⟨2, ![E, 1]⟩ ⟨2, ![E, C]⟩) : Prop where
  offsetDims : d.offsetDims = [1]
  collapsedSliceDims : d.collapsedSliceDims = [0]
  operandBatchingDims : d.operandBatchingDims = []
  startIndicesBatchingDims : d.startIndicesBatchingDims = []
  startIndexMap : d.startIndexMap = [0]
  indexVectorDim : d.indexVectorDim = 1
  sliceSizes : d.sliceSizes = ![1, C]

/-- A start index read as a signed integer and clamped into the rows [0, N − 1] of an operand with N rows. -/
def clampRow (N : Nat) (hN : 0 < N) {w : Nat} (v : BitVec w) : Fin N := ⟨min v.toInt.toNat (N - 1), by omega⟩

/-- The row gather read at an element: the operand's element in the row the start index of the element's row
    names (read signed, clamped into range) and in the element's column. -/
theorem gather_rows_apply {N E C w : Nat} (hN : 0 < N) (d : GatherDims ⟨2, ![N, C]⟩ ⟨2, ![E, 1]⟩ ⟨2, ![E, C]⟩)
    (hd : IsRowGather d) (x : (⟨2, ![N, C]⟩ : Shape).Idx → α) (idx : IVec ⟨2, ![E, 1]⟩ w)
    (j : (⟨2, ![E, C]⟩ : Shape).Idx) :
    Host.gather d x idx j
      = x (ix2 (clampRow N hN (idx (ix2 (j 0) 0))) (j 1)) := by
  obtain ⟨od, cd, ob, sb, sm, iv, ss, wf⟩ := d
  obtain ⟨h1, h2, h3, h4, h5, h6, h7⟩ := hd
  simp only at h1 h2 h3 h4 h5 h6 h7
  subst h1 h2 h3 h4 h5 h6 h7
  unfold Host.gather
  congr 1
  funext a
  refine Fin.ext ?_
  match a with
  | ⟨0, _⟩ =>
    show GatherDims.start _ j idx 0 + GatherDims.batchCoord _ j 0 + GatherDims.offCoord _ j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![N, C]⟩ ⟨2, ![E, 1]⟩ ⟨2, ![E, C]⟩) j
        ⟨List.idxOf (0 : Fin 2) [0], List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show GatherDims.start _ j idx 1 + GatherDims.batchCoord _ j 1 + GatherDims.offCoord _ j 1 = _
    rw [GatherDims.batchCoord_eq_zero _ _ _ List.not_mem_nil]
    unfold GatherDims.start
    rw [dif_neg (show ¬ ((1 : Fin 2) ∈ ([0] : List (Fin 2))) by decide)]
    unfold GatherDims.offCoord
    rw [dif_pos ((GatherDims.mem_sKept _ _).2 ⟨(show ¬ ((1 : Fin 2) ∈ ([0] : List (Fin 2))) by decide), List.not_mem_nil⟩)]
    simp only [Nat.zero_add]
    rfl

/-- The dimension numbers of a scatter of whole rows: operand [N, C], scatter indices [E, 1], updates [E, C];
    update row r goes to the operand row the r-th scatter index names. -/
structure IsRowScatter {N E C : Nat} (d : ScatterDims ⟨2, ![N, C]⟩ ⟨2, ![E, 1]⟩ ⟨2, ![E, C]⟩) : Prop where
  updateWindowDims : d.updateWindowDims = [1]
  insertedWindowDims : d.insertedWindowDims = [0]
  scatterDimsToOperandDims : d.scatterDimsToOperandDims = [0]
  indexVectorDim : d.indexVectorDim = 1

/-- Where an update element of the row scatter lands: the element in update row r and column c lands on operand
    element i exactly when row r's scatter index, read signed, is i's row and c is i's column (an index outside
    [0, N) lands nowhere). -/
theorem resultIdx?_rows_eq_some_iff {N E C w : Nat} (d : ScatterDims ⟨2, ![N, C]⟩ ⟨2, ![E, 1]⟩ ⟨2, ![E, C]⟩)
    (hd : IsRowScatter d) (idx : IVec ⟨2, ![E, 1]⟩ w) (j : (⟨2, ![E, C]⟩ : Shape).Idx)
    (i : (⟨2, ![N, C]⟩ : Shape).Idx) :
    d.resultIdx? j idx = some i ↔ (idx (ix2 (j 0) 0)).toInt = ((i 0).val : Int) ∧ (j 1).val = (i 1).val := by
  obtain ⟨uw, iw, sd, iv, wf⟩ := d
  obtain ⟨h1, h2, h3, h4⟩ := hd
  simp only at h1 h2 h3 h4
  subst h1 h2 h3 h4
  have hs0 : ScatterDims.start (⟨[1], [0], [0], 1, wf⟩ : ScatterDims ⟨2, ![N, C]⟩ ⟨2, ![E, 1]⟩ ⟨2, ![E, C]⟩) j idx 0
      = (idx (ix2 (j 0) 0)).toInt := by
    unfold ScatterDims.start
    rw [dif_pos (List.mem_singleton.mpr rfl)]
    have hsi : ScatterDims.siIdx (⟨[1], [0], [0], 1, wf⟩ : ScatterDims ⟨2, ![N, C]⟩ ⟨2, ![E, 1]⟩ ⟨2, ![E, C]⟩) j
        ⟨List.idxOf (0 : Fin 2) [0], List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hs1 : ScatterDims.start (⟨[1], [0], [0], 1, wf⟩ : ScatterDims ⟨2, ![N, C]⟩ ⟨2, ![E, 1]⟩ ⟨2, ![E, C]⟩) j idx 1 = 0 := by
    unfold ScatterDims.start
    rw [dif_neg (show ¬ ((1 : Fin 2) ∈ ([0] : List (Fin 2))) by decide)]
  have hw0 : ScatterDims.window (⟨[1], [0], [0], 1, wf⟩ : ScatterDims ⟨2, ![N, C]⟩ ⟨2, ![E, 1]⟩ ⟨2, ![E, C]⟩) j 0 = 0 := by
    unfold ScatterDims.window
    rw [dif_neg]
    simp [ScatterDims.sKept, Shape.kept]
  have hw1 : ScatterDims.window (⟨[1], [0], [0], 1, wf⟩ : ScatterDims ⟨2, ![N, C]⟩ ⟨2, ![E, 1]⟩ ⟨2, ![E, C]⟩) j 1 = (j 1).val := by
    unfold ScatterDims.window
    rw [dif_pos (by simp [ScatterDims.sKept, Shape.kept])]
    rfl
  have hall_iff : (∀ a, 0 ≤ ScatterDims.start (⟨[1], [0], [0], 1, wf⟩ : ScatterDims ⟨2, ![N, C]⟩ ⟨2, ![E, 1]⟩ ⟨2, ![E, C]⟩) j idx a + ScatterDims.window (⟨[1], [0], [0], 1, wf⟩ : ScatterDims ⟨2, ![N, C]⟩ ⟨2, ![E, 1]⟩ ⟨2, ![E, C]⟩) j a ∧
      ScatterDims.start (⟨[1], [0], [0], 1, wf⟩ : ScatterDims ⟨2, ![N, C]⟩ ⟨2, ![E, 1]⟩ ⟨2, ![E, C]⟩) j idx a + ScatterDims.window (⟨[1], [0], [0], 1, wf⟩ : ScatterDims ⟨2, ![N, C]⟩ ⟨2, ![E, 1]⟩ ⟨2, ![E, C]⟩) j a < (({ rank := 2, size := ![N, C] } : Shape).size a : Nat))
      ↔ (0 ≤ (idx (ix2 (j 0) 0)).toInt ∧ (idx (ix2 (j 0) 0)).toInt < (N : Int)) := by
    constructor
    · intro h
      have h0 := h 0
      rw [hs0, hw0] at h0
      have : ((({ rank := 2, size := ![N, C] } : Shape).size 0 : Nat) : Int) = (N : Int) := rfl
      rw [this] at h0
      omega
    · intro h a
      match a with
      | ⟨0, _⟩ =>
        show 0 ≤ ScatterDims.start (⟨[1], [0], [0], 1, wf⟩ : ScatterDims ⟨2, ![N, C]⟩ ⟨2, ![E, 1]⟩ ⟨2, ![E, C]⟩) j idx 0 + ScatterDims.window (⟨[1], [0], [0], 1, wf⟩ : ScatterDims ⟨2, ![N, C]⟩ ⟨2, ![E, 1]⟩ ⟨2, ![E, C]⟩) j 0 ∧
          ScatterDims.start (⟨[1], [0], [0], 1, wf⟩ : ScatterDims ⟨2, ![N, C]⟩ ⟨2, ![E, 1]⟩ ⟨2, ![E, C]⟩) j idx 0 + ScatterDims.window (⟨[1], [0], [0], 1, wf⟩ : ScatterDims ⟨2, ![N, C]⟩ ⟨2, ![E, 1]⟩ ⟨2, ![E, C]⟩) j 0 < ((N : Nat) : Int)
        rw [hs0, hw0]; omega
      | ⟨1, _⟩ =>
        show 0 ≤ ScatterDims.start (⟨[1], [0], [0], 1, wf⟩ : ScatterDims ⟨2, ![N, C]⟩ ⟨2, ![E, 1]⟩ ⟨2, ![E, C]⟩) j idx 1 + ScatterDims.window (⟨[1], [0], [0], 1, wf⟩ : ScatterDims ⟨2, ![N, C]⟩ ⟨2, ![E, 1]⟩ ⟨2, ![E, C]⟩) j 1 ∧
          ScatterDims.start (⟨[1], [0], [0], 1, wf⟩ : ScatterDims ⟨2, ![N, C]⟩ ⟨2, ![E, 1]⟩ ⟨2, ![E, C]⟩) j idx 1 + ScatterDims.window (⟨[1], [0], [0], 1, wf⟩ : ScatterDims ⟨2, ![N, C]⟩ ⟨2, ![E, 1]⟩ ⟨2, ![E, C]⟩) j 1 < ((C : Nat) : Int)
        rw [hs1, hw1]; have := idx2_lt1 j; omega
  unfold ScatterDims.resultIdx?
  by_cases hall : ∀ a, 0 ≤ ScatterDims.start (⟨[1], [0], [0], 1, wf⟩ : ScatterDims ⟨2, ![N, C]⟩ ⟨2, ![E, 1]⟩ ⟨2, ![E, C]⟩) j idx a + ScatterDims.window (⟨[1], [0], [0], 1, wf⟩ : ScatterDims ⟨2, ![N, C]⟩ ⟨2, ![E, 1]⟩ ⟨2, ![E, C]⟩) j a ∧
      ScatterDims.start (⟨[1], [0], [0], 1, wf⟩ : ScatterDims ⟨2, ![N, C]⟩ ⟨2, ![E, 1]⟩ ⟨2, ![E, C]⟩) j idx a + ScatterDims.window (⟨[1], [0], [0], 1, wf⟩ : ScatterDims ⟨2, ![N, C]⟩ ⟨2, ![E, 1]⟩ ⟨2, ![E, C]⟩) j a < (({ rank := 2, size := ![N, C] } : Shape).size a : Nat)
  · rw [dif_pos hall]
    have hb := hall_iff.1 hall
    constructor
    · intro h
      have hi := Option.some.inj h
      have e0 : (ScatterDims.start (⟨[1], [0], [0], 1, wf⟩ : ScatterDims ⟨2, ![N, C]⟩ ⟨2, ![E, 1]⟩ ⟨2, ![E, C]⟩) j idx 0 + ScatterDims.window (⟨[1], [0], [0], 1, wf⟩ : ScatterDims ⟨2, ![N, C]⟩ ⟨2, ![E, 1]⟩ ⟨2, ![E, C]⟩) j 0).toNat = (i 0).val :=
        congrArg (fun f => (f 0).val) hi
      have e1 : (ScatterDims.start (⟨[1], [0], [0], 1, wf⟩ : ScatterDims ⟨2, ![N, C]⟩ ⟨2, ![E, 1]⟩ ⟨2, ![E, C]⟩) j idx 1 + ScatterDims.window (⟨[1], [0], [0], 1, wf⟩ : ScatterDims ⟨2, ![N, C]⟩ ⟨2, ![E, 1]⟩ ⟨2, ![E, C]⟩) j 1).toNat = (i 1).val :=
        congrArg (fun f => (f 1).val) hi
      rw [hs0, hw0] at e0
      rw [hs1, hw1] at e1
      constructor <;> omega
    · rintro ⟨e0, e1⟩
      congr 1
      funext a
      refine Fin.ext ?_
      match a with
      | ⟨0, _⟩ =>
        show (ScatterDims.start (⟨[1], [0], [0], 1, wf⟩ : ScatterDims ⟨2, ![N, C]⟩ ⟨2, ![E, 1]⟩ ⟨2, ![E, C]⟩) j idx 0 + ScatterDims.window (⟨[1], [0], [0], 1, wf⟩ : ScatterDims ⟨2, ![N, C]⟩ ⟨2, ![E, 1]⟩ ⟨2, ![E, C]⟩) j 0).toNat = (i 0).val
        rw [hs0, hw0]; omega
      | ⟨1, _⟩ =>
        show (ScatterDims.start (⟨[1], [0], [0], 1, wf⟩ : ScatterDims ⟨2, ![N, C]⟩ ⟨2, ![E, 1]⟩ ⟨2, ![E, C]⟩) j idx 1 + ScatterDims.window (⟨[1], [0], [0], 1, wf⟩ : ScatterDims ⟨2, ![N, C]⟩ ⟨2, ![E, 1]⟩ ⟨2, ![E, C]⟩) j 1).toNat = (i 1).val
        rw [hs1, hw1]; omega
  · rw [dif_neg hall]
    constructor
    · intro h; exact absurd h (by simp)
    · rintro ⟨e0, e1⟩
      exfalso; apply hall; apply hall_iff.2
      have := idx2_lt0 i
      omega

/-- The accumulating scatter of rows, read at an element: the operand's element plus the sum, over the update
    rows r whose scatter index (read signed) is the element's row, of the update's element in row r and the
    element's column. Rows whose index is outside [0, N) meet no element. -/
theorem hostScatterAdd_rows_apply {N E C w : Nat} (d : ScatterDims ⟨2, ![N, C]⟩ ⟨2, ![E, 1]⟩ ⟨2, ![E, C]⟩)
    (hd : IsRowScatter d) (x : (⟨2, ![N, C]⟩ : Shape).Idx → EReal) (idx : IVec ⟨2, ![E, 1]⟩ w)
    (upd : (⟨2, ![E, C]⟩ : Shape).Idx → EReal) (i : (⟨2, ![N, C]⟩ : Shape).Idx) :
    Ideal.hostScatterAdd d x idx upd i
      = x i + ∑ r : Fin E, if (idx (ix2 r 0)).toInt = ((i 0).val : Int) then upd (ix2 r (i 1)) else 0 := by
  unfold Ideal.hostScatterAdd
  congr 1
  rw [Finset.sum_filter, sum_idx2]
  refine Finset.sum_congr rfl fun r _ => ?_
  have hc : ∀ c : Fin C, (d.resultIdx? (ix2 r c) idx = some i)
      ↔ ((idx (ix2 r 0)).toInt = ((i 0).val : Int) ∧ c = (i 1 : Fin C)) := by
    intro c
    rw [resultIdx?_rows_eq_some_iff d hd]
    constructor
    · rintro ⟨a, b⟩; exact ⟨a, Fin.ext b⟩
    · rintro ⟨a, b⟩; exact ⟨a, congrArg Fin.val b⟩
  by_cases hP : (idx (ix2 r 0)).toInt = ((i 0).val : Int)
  · rw [if_pos hP]
    refine (Finset.sum_eq_single (i 1 : Fin C) ?_ ?_).trans ?_
    · intro b _ hb
      exact if_neg (fun h => hb ((hc b).1 h).2)
    · intro h; exact absurd (Finset.mem_univ _) h
    · exact if_pos ((hc _).2 ⟨hP, rfl⟩)
  · rw [if_neg hP]
    exact Finset.sum_eq_zero fun b _ => if_neg (fun h => hP ((hc b).1 h).1)

/-- The row gather read at the element in row r, column c. -/
theorem gather_rows_apply_ix2 {N E C w : Nat} (hN : 0 < N) (d : GatherDims ⟨2, ![N, C]⟩ ⟨2, ![E, 1]⟩ ⟨2, ![E, C]⟩)
    (hd : IsRowGather d) (x : (⟨2, ![N, C]⟩ : Shape).Idx → α) (idx : IVec ⟨2, ![E, 1]⟩ w) (r : Fin E) (c : Fin C) :
    Host.gather d x idx (ix2 r c)
      = x (ix2 (clampRow N hN (idx (ix2 r 0))) c) :=
  gather_rows_apply hN d hd x idx (ix2 r c)

/-- ONE gather and scatter-add over a doubled edge list is the sum of the two over its halves: when the 2E gather
    indices are those of a first list followed by those of a second, and the 2E scatter targets likewise, gathering
    rows of h at all 2E indices and accumulating them into zeros at the 2E targets gives, element by element, the
    first list's gather-and-accumulate plus the second's. -/
theorem scatterAdd_gather_append {N E C w : Nat} (hN : 0 < N)
    (dgK : GatherDims ⟨2, ![N, C]⟩ ⟨2, ![E + E, 1]⟩ ⟨2, ![E + E, C]⟩) (hdgK : IsRowGather dgK)
    (dsK : ScatterDims ⟨2, ![N, C]⟩ ⟨2, ![E + E, 1]⟩ ⟨2, ![E + E, C]⟩) (hdsK : IsRowScatter dsK)
    (dgR : GatherDims ⟨2, ![N, C]⟩ ⟨2, ![E, 1]⟩ ⟨2, ![E, C]⟩) (hdgR : IsRowGather dgR)
    (dsR : ScatterDims ⟨2, ![N, C]⟩ ⟨2, ![E, 1]⟩ ⟨2, ![E, C]⟩) (hdsR : IsRowScatter dsR)
    (h : (⟨2, ![N, C]⟩ : Shape).Idx → EReal)
    (gi ti : IVec ⟨2, ![E + E, 1]⟩ w) (g1 g2 t1 t2 : IVec ⟨2, ![E, 1]⟩ w)
    (hg1 : ∀ r : Fin E, gi (ix2 (Fin.castAdd E r) 0) = g1 (ix2 r 0))
    (hg2 : ∀ r : Fin E, gi (ix2 (Fin.natAdd E r) 0) = g2 (ix2 r 0))
    (ht1 : ∀ r : Fin E, ti (ix2 (Fin.castAdd E r) 0) = t1 (ix2 r 0))
    (ht2 : ∀ r : Fin E, ti (ix2 (Fin.natAdd E r) 0) = t2 (ix2 r 0))
    (i : (⟨2, ![N, C]⟩ : Shape).Idx) :
    Ideal.hostScatterAdd dsK (fun _ => 0) ti (Host.gather dgK h gi) i
      = Ideal.hostScatterAdd dsR (fun _ => 0) t1 (Host.gather dgR h g1) i
        + Ideal.hostScatterAdd dsR (fun _ => 0) t2 (Host.gather dgR h g2) i := by
  rw [hostScatterAdd_rows_apply dsK hdsK, hostScatterAdd_rows_apply dsR hdsR, hostScatterAdd_rows_apply dsR hdsR]
  simp only [zero_add]
  rw [Fin.sum_univ_add]
  congr 1
  · refine Finset.sum_congr rfl fun r _ => ?_
    rw [ht1 r]
    refine if_congr Iff.rfl ?_ rfl
    exact (gather_rows_apply_ix2 hN dgK hdgK h gi (Fin.castAdd E r) (i 1)).trans
      ((congrArg (fun v => h (ix2 (clampRow N hN v) (i 1))) (hg1 r)).trans
        (gather_rows_apply_ix2 hN dgR hdgR h g1 r (i 1)).symm)
  · refine Finset.sum_congr rfl fun r _ => ?_
    rw [ht2 r]
    refine if_congr Iff.rfl ?_ rfl
    exact (gather_rows_apply_ix2 hN dgK hdgK h gi (Fin.natAdd E r) (i 1)).trans
      ((congrArg (fun v => h (ix2 (clampRow N hN v) (i 1))) (hg2 r)).trans
        (gather_rows_apply_ix2 hN dgR hdgR h g2 r (i 1)).symm)

/-- A vector of E words broadcast to an [E, 1] column reads, in row r, the vector's r-th word. -/
theorem broadcastInDim_col_apply {E w : Nat} (hb : (⟨1, ![E]⟩ : Shape).BroadcastsInDim ⟨2, ![E, 1]⟩ ![0])
    (v : IVec ⟨1, ![E]⟩ w) (r : Fin E) :
    broadcastInDim ⟨2, ![E, 1]⟩ ![0] hb v (ix2 r 0) = v (ix1 r) := by
  refine broadcastInDim_apply (![0]) hb v (ix2 r 0) (ix1 r) ?_
  intro a
  match a with
  | ⟨0, _⟩ =>
    show r.val = if E = 1 then 0 else r.val
    split
    · have := r.isLt; omega
    · rfl

/-- Two vectors of E words concatenated: position r of the first half is the first vector's word r. -/
theorem concatenate_halves_left {E w : Nat}
    (hcat : Shape.Concatenates [(⟨1, ![E]⟩ : Shape), ⟨1, ![E]⟩] ⟨1, ![E + E]⟩ 0)
    (a b : IVec ⟨1, ![E]⟩ w) (r : Fin E) :
    concatenate ⟨1, ![E + E]⟩ 0 [⟨⟨1, ![E]⟩, a⟩, ⟨⟨1, ![E]⟩, b⟩] hcat (ix1 (Fin.castAdd E r)) = a (ix1 r) := by
  refine concatenate_pair_apply_left (0 : Fin 1) a b hcat (ix1 (Fin.castAdd E r)) rfl (ix1 r) ?_
  intro c
  match c with
  | ⟨0, _⟩ => rfl

/-- Two vectors of E words concatenated: position E + r is the second vector's word r. -/
theorem concatenate_halves_right {E w : Nat}
    (hcat : Shape.Concatenates [(⟨1, ![E]⟩ : Shape), ⟨1, ![E]⟩] ⟨1, ![E + E]⟩ 0)
    (a b : IVec ⟨1, ![E]⟩ w) (r : Fin E) :
    concatenate ⟨1, ![E + E]⟩ 0 [⟨⟨1, ![E]⟩, a⟩, ⟨⟨1, ![E]⟩, b⟩] hcat (ix1 (Fin.natAdd E r)) = b (ix1 r) := by
  refine concatenate_pair_apply_right (0 : Fin 1) a b hcat (ix1 (Fin.natAdd E r)) rfl rfl (ix1 r) ?_ ?_
  · intro c hc
    exfalso; apply hc
    exact Subsingleton.elim _ _
  · show r.val + E = E + r.val
    omega

/-- THE NEIGHBOUR SUM OVER A DOUBLED EDGE LIST. Nodes carry rows h of C features; src and dst are the E edges'
    endpoints as 32-bit words. Gathering the rows of h at the 2E indices (src then dst) — each index below c0 (signed)
    first shifted by c1, then read signed and clamped into range by the gather — and accumulating them into zeros at
    the 2E targets (dst then src) is, as a function on the [N, C] elements, the sum of the two one-directional
    terms: rows gathered at src accumulated at dst, plus rows gathered at dst accumulated at src. Each side is
    spelt with the host operations themselves; every float is an extended real, so the widening conversion after
    the left side's gather is the identity and the accumulations are exact sums. -/
theorem neighbour_sum_concat {N E E2 C : Nat} (hE2 : E2 = E + E) (hN : 0 < N)
    (dgK : GatherDims ⟨2, ![N, C]⟩ ⟨2, ![E2, 1]⟩ ⟨2, ![E2, C]⟩) (hdgK : IsRowGather dgK)
    (dsK : ScatterDims ⟨2, ![N, C]⟩ ⟨2, ![E2, 1]⟩ ⟨2, ![E2, C]⟩) (hdsK : IsRowScatter dsK)
    (dgR : GatherDims ⟨2, ![N, C]⟩ ⟨2, ![E, 1]⟩ ⟨2, ![E, C]⟩) (hdgR : IsRowGather dgR)
    (dsR : ScatterDims ⟨2, ![N, C]⟩ ⟨2, ![E, 1]⟩ ⟨2, ![E, C]⟩) (hdsR : IsRowScatter dsR)
    (hcat : Shape.Concatenates [(⟨1, ![E]⟩ : Shape), ⟨1, ![E]⟩] ⟨1, ![E2]⟩ 0)
    (hb0K : (⟨0, ![]⟩ : Shape).BroadcastsInDim ⟨1, ![E2]⟩ ![])
    (hb1K : (⟨1, ![E2]⟩ : Shape).BroadcastsInDim ⟨2, ![E2, 1]⟩ ![0])
    (hb0R : (⟨0, ![]⟩ : Shape).BroadcastsInDim ⟨1, ![E]⟩ ![])
    (hb1R : (⟨1, ![E]⟩ : Shape).BroadcastsInDim ⟨2, ![E, 1]⟩ ![0])
    (hbz : (⟨0, ![]⟩ : Shape).BroadcastsInDim ⟨2, ![N, C]⟩ ![])
    (hlt : FTy.bits .bf16 < FTy.bits .f32) (c0 c1 : BitVec 32)
    (h : (⟨2, ![N, C]⟩ : Shape).Idx → EReal) (src dst : IVec ⟨1, ![E]⟩ 32) :
    (Host.scatterAdd dsK
        (broadcastInDim ⟨2, ![N, C]⟩ ![] hbz (constant (⟨0, ![]⟩ : Shape) .f32 0x00000000#32))
        (broadcastInDim ⟨2, ![E2, 1]⟩ ![0] hb1K
          (concatenate ⟨1, ![E2]⟩ 0 [⟨⟨1, ![E]⟩, dst⟩, ⟨⟨1, ![E]⟩, src⟩] hcat))
        (extf .f32 (Host.gather dgK (h : FVec Ideal ⟨2, ![N, C]⟩ .bf16)
          (broadcastInDim ⟨2, ![E2, 1]⟩ ![0] hb1K
            (select
              (cmpi .slt (concatenate ⟨1, ![E2]⟩ 0 [⟨⟨1, ![E]⟩, src⟩, ⟨⟨1, ![E]⟩, dst⟩] hcat)
                (broadcastInDim ⟨1, ![E2]⟩ ![] hb0K (constantI (⟨0, ![]⟩ : Shape) 32 c0)))
              (addi (concatenate ⟨1, ![E2]⟩ 0 [⟨⟨1, ![E]⟩, src⟩, ⟨⟨1, ![E]⟩, dst⟩] hcat)
                (broadcastInDim ⟨1, ![E2]⟩ ![] hb0K (constantI (⟨0, ![]⟩ : Shape) 32 c1)))
              (concatenate ⟨1, ![E2]⟩ 0 [⟨⟨1, ![E]⟩, src⟩, ⟨⟨1, ![E]⟩, dst⟩] hcat)))) hlt)
      : FVec Ideal ⟨2, ![N, C]⟩ .f32)
    = addf
        (Host.scatterAdd dsR
          (broadcastInDim ⟨2, ![N, C]⟩ ![] hbz (constant (⟨0, ![]⟩ : Shape) .f32 0x00000000#32))
          (broadcastInDim ⟨2, ![E, 1]⟩ ![0] hb1R dst)
          (Host.gather dgR (h : FVec Ideal ⟨2, ![N, C]⟩ .f32)
            (broadcastInDim ⟨2, ![E, 1]⟩ ![0] hb1R
              (select (cmpi .slt src (broadcastInDim ⟨1, ![E]⟩ ![] hb0R (constantI (⟨0, ![]⟩ : Shape) 32 c0)))
                (addi src (broadcastInDim ⟨1, ![E]⟩ ![] hb0R (constantI (⟨0, ![]⟩ : Shape) 32 c1))) src))))
        (Host.scatterAdd dsR
          (broadcastInDim ⟨2, ![N, C]⟩ ![] hbz (constant (⟨0, ![]⟩ : Shape) .f32 0x00000000#32))
          (broadcastInDim ⟨2, ![E, 1]⟩ ![0] hb1R src)
          (Host.gather dgR (h : FVec Ideal ⟨2, ![N, C]⟩ .f32)
            (broadcastInDim ⟨2, ![E, 1]⟩ ![0] hb1R
              (select (cmpi .slt dst (broadcastInDim ⟨1, ![E]⟩ ![] hb0R (constantI (⟨0, ![]⟩ : Shape) 32 c0)))
                (addi dst (broadcastInDim ⟨1, ![E]⟩ ![] hb0R (constantI (⟨0, ![]⟩ : Shape) 32 c1))) dst)))) := by
  subst hE2
  have hz : (broadcastInDim ⟨2, ![N, C]⟩ ![] hbz (constant (⟨0, ![]⟩ : Shape) .f32 0x00000000#32)
      : FVec Ideal ⟨2, ![N, C]⟩ .f32) = fun _ => (0 : EReal) := by
    funext j
    show Ideal.ofBits .f32 0x00000000#32 = 0
    exact Ideal.ofBits_zero_f32
  rw [hz]
  funext i
  refine scatterAdd_gather_append hN dgK hdgK dsK hdsK dgR hdgR dsR hdsR h _ _ _ _ _ _ ?_ ?_ ?_ ?_ i
  · intro r
    rw [broadcastInDim_col_apply, broadcastInDim_col_apply]
    show Scalar.select (IntOp.cmpi .slt (concatenate ⟨1, ![E + E]⟩ 0 [⟨⟨1, ![E]⟩, src⟩, ⟨⟨1, ![E]⟩, dst⟩] hcat (ix1 (Fin.castAdd E r))) c0)
        (IntOp.addi (concatenate ⟨1, ![E + E]⟩ 0 [⟨⟨1, ![E]⟩, src⟩, ⟨⟨1, ![E]⟩, dst⟩] hcat (ix1 (Fin.castAdd E r))) c1)
        (concatenate ⟨1, ![E + E]⟩ 0 [⟨⟨1, ![E]⟩, src⟩, ⟨⟨1, ![E]⟩, dst⟩] hcat (ix1 (Fin.castAdd E r)))
      = Scalar.select (IntOp.cmpi .slt (src (ix1 r)) c0) (IntOp.addi (src (ix1 r)) c1) (src (ix1 r))
    rw [concatenate_halves_left hcat src dst r]
  · intro r
    rw [broadcastInDim_col_apply, broadcastInDim_col_apply]
    show Scalar.select (IntOp.cmpi .slt (concatenate ⟨1, ![E + E]⟩ 0 [⟨⟨1, ![E]⟩, src⟩, ⟨⟨1, ![E]⟩, dst⟩] hcat (ix1 (Fin.natAdd E r))) c0)
        (IntOp.addi (concatenate ⟨1, ![E + E]⟩ 0 [⟨⟨1, ![E]⟩, src⟩, ⟨⟨1, ![E]⟩, dst⟩] hcat (ix1 (Fin.natAdd E r))) c1)
        (concatenate ⟨1, ![E + E]⟩ 0 [⟨⟨1, ![E]⟩, src⟩, ⟨⟨1, ![E]⟩, dst⟩] hcat (ix1 (Fin.natAdd E r)))
      = Scalar.select (IntOp.cmpi .slt (dst (ix1 r)) c0) (IntOp.addi (dst (ix1 r)) c1) (dst (ix1 r))
    rw [concatenate_halves_right hcat src dst r]
  · intro r
    rw [broadcastInDim_col_apply, broadcastInDim_col_apply]
    exact concatenate_halves_left hcat dst src r
  · intro r
    rw [broadcastInDim_col_apply, broadcastInDim_col_apply]
    exact concatenate_halves_right hcat dst src r

/-- Scaling by a reciprocal is division, off zero: a · (1 / d) = a / d for every extended real a and d ≠ 0
    (at d = ±∞ both sides are a · 0). -/
theorem mul_div_one (a d : EReal) (hd : d ≠ 0) : a * Ideal.div 1 d = Ideal.div a d := by
  unfold Ideal.div
  rw [if_neg hd, if_neg hd, one_mul]

/-- The same for a divisor that is at least one (a degree clamped below at one; +∞ allowed). -/
theorem mul_div_one_of_one_le (a d : EReal) (hd : 1 ≤ d) : a * Ideal.div 1 d = Ideal.div a d :=
  mul_div_one a d (lt_of_lt_of_le zero_lt_one hd).ne'

end EdgeSum

end
-- ==== Proof.LibSparseRows.lean ====
import Idealize.ShloMosaic.PureOps.Ideal
import Idealize.ShloMosaic.Lib.ValueIdx
import Idealize.ShloMosaic.Lib.Pipeline.Value
import proofs.«139553_j69810398429356_1_alg».proof.Proof.LibEdgeSum

/-! A sparse matrix in coordinate form applied to the rows of a dense matrix, read at an element.

The sparse matrix has E nonzeros: nonzero e has a weight vals e, a target row row e and a source row col e, all
given as vectors of length E. Applying it to a dense [N, C] matrix z is spelt with host operations: the source
indices below c0 (signed) are shifted by c1, the rows of z they name are gathered (the gather reads an index
signed and clamps it into range), each gathered row is multiplied by its weight (the weight vector laid out as a
column and spread along the row), and the weighted rows are accumulated into zeros at their target rows (a target
outside [0, N) is dropped). This file reads the result at (r, q) over the extended reals: zero plus the sum, over
the nonzeros whose target is r, of the weight times z at the clamped source row and column q. -/

noncomputable section

open scoped BigOperators

namespace SparseRows

open Idealize.ShloMosaic Idealize.ShloMosaic.ValueIdx

variable {α : Type}

/-- A vector of length E laid out as an [E, 1] column reads, in row r, the vector's entry r. -/
theorem col_apply {E : Nat} (hb : (⟨1, ![E]⟩ : Shape).BroadcastsInDim ⟨2, ![E, 1]⟩ ![0])
    (v : (⟨1, ![E]⟩ : Shape).Idx → α) (r : Fin E) :
    broadcastInDim ⟨2, ![E, 1]⟩ ![0] hb v (ix2 r 0) = v (ix1 r) := by
  refine broadcastInDim_apply (![0]) hb v (ix2 r 0) (ix1 r) ?_
  intro a
  match a with
  | ⟨0, _⟩ =>
    show r.val = if E = 1 then 0 else r.val
    split
    · have := r.isLt; omega
    · rfl

/-- An [E, 1] column spread along C columns reads, at (r, q), the column's entry in row r. -/
theorem spread_apply {E C : Nat} (hb : (⟨2, ![E, 1]⟩ : Shape).BroadcastsInDim ⟨2, ![E, C]⟩ ![0, 1])
    (v : (⟨2, ![E, 1]⟩ : Shape).Idx → α) (r : Fin E) (q : Fin C) :
    broadcastInDim ⟨2, ![E, C]⟩ ![0, 1] hb v (ix2 r q) = v (ix2 r 0) := by
  refine broadcastInDim_apply (![0, 1]) hb v (ix2 r q) (ix2 r 0) ?_
  intro a
  match a with
  | ⟨0, _⟩ =>
    show r.val = if E = 1 then 0 else r.val
    split
    · have := r.isLt; omega
    · rfl
  | ⟨1, _⟩ =>
    show (0 : Nat) = if (1 : Nat) = 1 then 0 else q.val
    rw [if_pos rfl]

/-- A source index below c0 (signed) shifted by c1, any other kept: how a negative index is wrapped before a gather. -/
def wrapIdx (c0 c1 v : BitVec 32) : BitVec 32 := Scalar.select (IntOp.cmpi .slt v c0) (IntOp.addi v c1) v

/-- THE COORDINATE-FORM SPARSE MATRIX APPLIED TO DENSE ROWS, at (r, q): zero plus the sum over the nonzeros e
    whose target row (read signed) is r of vals e times z at (the wrapped source index of e, read signed and
    clamped into [0, N − 1]; column q). -/
theorem sparse_rows_apply {N E C : Nat} (hN : 0 < N)
    (dg : GatherDims ⟨2, ![N, C]⟩ ⟨2, ![E, 1]⟩ ⟨2, ![E, C]⟩) (hdg : EdgeSum.IsRowGather dg)
    (ds : ScatterDims ⟨2, ![N, C]⟩ ⟨2, ![E, 1]⟩ ⟨2, ![E, C]⟩) (hds : EdgeSum.IsRowScatter ds)
    (hb0 : (⟨0, ![]⟩ : Shape).BroadcastsInDim ⟨1, ![E]⟩ ![])
    (hb1 : (⟨1, ![E]⟩ : Shape).BroadcastsInDim ⟨2, ![E, 1]⟩ ![0])
    (hb2 : (⟨2, ![E, 1]⟩ : Shape).BroadcastsInDim ⟨2, ![E, C]⟩ ![0, 1])
    (hbz : (⟨0, ![]⟩ : Shape).BroadcastsInDim ⟨2, ![N, C]⟩ ![])
    (c0 c1 : BitVec 32) (row col : IVec ⟨1, ![E]⟩ 32) (vals : FVec Ideal ⟨1, ![E]⟩ .f32)
    (z : FVec Ideal ⟨2, ![N, C]⟩ .f32) (r : Fin N) (q : Fin C) :
    (Host.scatterAdd ds
        (broadcastInDim ⟨2, ![N, C]⟩ ![] hbz (constant (F := Ideal) (⟨0, ![]⟩ : Shape) .f32 0x00000000#32))
        (broadcastInDim ⟨2, ![E, 1]⟩ ![0] hb1 row)
        (mulf (broadcastInDim ⟨2, ![E, C]⟩ ![0, 1] hb2 (broadcastInDim ⟨2, ![E, 1]⟩ ![0] hb1 vals))
          (Host.gather dg z
            (broadcastInDim ⟨2, ![E, 1]⟩ ![0] hb1
              (select (cmpi .slt col (broadcastInDim ⟨1, ![E]⟩ ![] hb0 (constantI (⟨0, ![]⟩ : Shape) 32 c0)))
                (addi col (broadcastInDim ⟨1, ![E]⟩ ![] hb0 (constantI (⟨0, ![]⟩ : Shape) 32 c1))) col))))
      : FVec Ideal ⟨2, ![N, C]⟩ .f32) (ix2 r q)
      = 0 + ∑ e : Fin E, if (row (ix1 e)).toInt = (r.val : Int)
          then vals (ix1 e) * z (ix2 (EdgeSum.clampRow N hN (wrapIdx c0 c1 (col (ix1 e)))) q) else 0 := by
  have hz : (broadcastInDim ⟨2, ![N, C]⟩ ![] hbz (constant (F := Ideal) (⟨0, ![]⟩ : Shape) .f32 0x00000000#32)
      : FVec Ideal ⟨2, ![N, C]⟩ .f32) = fun _ => (0 : EReal) := by
    funext j
    show Ideal.ofBits .f32 0x00000000#32 = 0
    exact Ideal.ofBits_zero_f32
  rw [hz]
  show Ideal.hostScatterAdd ds (fun _ => 0) _ _ (ix2 r q) = _
  rw [EdgeSum.hostScatterAdd_rows_apply ds hds]
  refine congrArg (fun s => (0 : EReal) + s) (Finset.sum_congr rfl fun e _ => ?_)
  rw [col_apply hb1 row e]
  refine if_congr Iff.rfl ?_ rfl
  show (broadcastInDim ⟨2, ![E, C]⟩ ![0, 1] hb2 (broadcastInDim ⟨2, ![E, 1]⟩ ![0] hb1 vals) (ix2 e q))
      * (Host.gather dg z _ (ix2 e q)) = _
  rw [spread_apply hb2, col_apply hb1 vals e, EdgeSum.gather_rows_apply_ix2 hN dg hdg, col_apply hb1]
  rfl

end SparseRows

end
-- ==== Proof.LibSparseAssoc.lean ====
import Idealize.ShloMosaic.PureOps.Ideal

/-! Sparse-times-dense associativity over the extended reals, at finite entries.

A sparse matrix L is given by its nonzeros: entry e has a weight v e and sits in a row selected by a predicate
P e (for a fixed output row) and in a column whose dense row is a e. Multiplying L by a dense matrix and then by a
second dense factor t, or by the product of the two dense factors, gives the same number:
sum_e [P e] v e * (sum_k a e k * t k) = sum_k (sum_e [P e] v e * a e k) * t k.
On the extended reals a product does not distribute over a sum in general (an infinite factor against terms of both
signs), so the statement asks every entry to be a real number; then both sides are the same finite sum of real
products, rearranged. -/

noncomputable section

open scoped BigOperators

namespace SparseAssoc

/-- The inclusion of the reals into the extended reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The rearrangement over the reals: a weighted selection of rows, each row contracted with t, is the
    contraction with t of the weighted selection of rows. -/
theorem real_sum_rows_mul_assoc {E K : Type*} [Fintype E] [Fintype K] (P : E → Prop) [DecidablePred P]
    (v : E → ℝ) (a : E → K → ℝ) (t : K → ℝ) :
    (∑ e, if P e then v e * ∑ k, a e k * t k else 0)
      = ∑ k, (∑ e, if P e then v e * a e k else 0) * t k := by
  symm
  calc (∑ k, (∑ e, if P e then v e * a e k else 0) * t k)
      = ∑ k, ∑ e, (if P e then v e * a e k else 0) * t k := by simp only [Finset.sum_mul]
    _ = ∑ e, ∑ k, (if P e then v e * a e k else 0) * t k := Finset.sum_comm
    _ = ∑ e, if P e then v e * ∑ k, a e k * t k else 0 := by
        refine Finset.sum_congr rfl fun e _ => ?_
        by_cases h : P e
        · simp only [if_pos h, Finset.mul_sum, mul_assoc]
        · simp only [if_neg h, zero_mul, Finset.sum_const_zero]

/-- SPARSE-TIMES-DENSE ASSOCIATIVITY at finite entries, in the form two accumulating scatters give it (each
    accumulation starts from zero): when every weight, every dense entry and every entry of the second factor is
    a real number, selecting and weighting the contracted rows equals contracting the selected and weighted rows. -/
theorem sum_rows_mul_assoc {E K : Type*} [Fintype E] [Fintype K] (P : E → Prop) [DecidablePred P]
    (v : E → EReal) (a : E → K → EReal) (t : K → EReal)
    (hv : ∀ e, ∃ r : ℝ, v e = r) (ha : ∀ e k, ∃ r : ℝ, a e k = r) (ht : ∀ k, ∃ r : ℝ, t k = r) :
    (0 + ∑ e, if P e then v e * ∑ k, a e k * t k else 0)
      = ∑ k, (0 + ∑ e, if P e then v e * a e k else 0) * t k := by
  choose vr hvr using hv
  choose ar har using ha
  choose tr htr using ht
  have hL : (0 + ∑ e, if P e then v e * ∑ k, a e k * t k else 0)
      = ((∑ e, if P e then vr e * ∑ k, ar e k * tr k else 0 : ℝ) : EReal) := by
    rw [zero_add, coe_sum]
    refine Finset.sum_congr rfl fun e _ => ?_
    by_cases h : P e
    · rw [if_pos h, if_pos h, EReal.coe_mul, coe_sum, hvr e]
      congr 1
      refine Finset.sum_congr rfl fun k _ => ?_
      rw [EReal.coe_mul, har e k, htr k]
    · rw [if_neg h, if_neg h, EReal.coe_zero]
  have hR : (∑ k, (0 + ∑ e, if P e then v e * a e k else 0) * t k)
      = ((∑ k, (∑ e, if P e then vr e * ar e k else 0) * tr k : ℝ) : EReal) := by
    rw [coe_sum]
    refine Finset.sum_congr rfl fun k _ => ?_
    rw [EReal.coe_mul, coe_sum, zero_add, htr k]
    congr 1
    refine Finset.sum_congr rfl fun e _ => ?_
    by_cases h : P e
    · rw [if_pos h, if_pos h, EReal.coe_mul, hvr e, har e k]
    · rw [if_neg h, if_neg h, EReal.coe_zero]
  rw [hL, hR, real_sum_rows_mul_assoc]

end SparseAssoc

end
-- ==== Proof.Bridge.lean ====
import proofs.«139553_j69810398429356_1_alg».proof.Proof.KernelRun
import proofs.«139553_j69810398429356_1_alg».proof.Proof.Gen.ReferenceIdeal.Run
import proofs.«139553_j69810398429356_1_alg».proof.Proof.LibSparseRows
import proofs.«139553_j69810398429356_1_alg».proof.Proof.LibSparseAssoc
import proofs.«139553_j69810398429356_1_alg».proof.Proof.LibPlainDot

/-! The two programs compute one function of finite arguments: L · (x · theta) = (L · x) · theta.

L is the 100000 × 100000 sparse matrix given by 400000 nonzeros (target row, source row, weight). The kernel
multiplies x by theta first and applies L to the 128-column product; the reference applies L to the 192-column x
and multiplies by theta afterwards. Entry (r, q) of the kernel's result is the sum over the nonzeros e targeting r
of w e · (sum over l of x (s e, l) · theta (l, q)); the reference's is the sum over l of (sum over the nonzeros e
targeting r of w e · x (s e, l)) · theta (l, q), where s e is nonzero e's source row after wrapping and clamping —
the same in both programs, whose x and product have the same 100000 rows. With every weight and every entry of x
and theta a real number the two are one finite sum of real products. -/

noncomputable section

open scoped BigOperators

namespace Cert.Bridge

open Idealize.ShloMosaic Idealize.ShloMosaic.ValueIdx

/-- The source row of nonzero e: its index, shifted by 100000 when negative, read signed and clamped into the
    100000 rows. -/
def src (a1 : IVec ⟨1, ![400000]⟩ 32) (e : Fin 400000) : Fin 100000 :=
  EdgeSum.clampRow 100000 (by decide) (SparseRows.wrapIdx 0#32 100000#32 (a1 (ix1 e)))

/-- The reference's result as one function of the five arrays: the sparse matrix applied to x, times theta. -/
def refResult (a0 a1 : IVec Cert.ReferenceIdeal.S400000 32) (a2 : FVec Ideal Cert.ReferenceIdeal.S400000 .f32)
    (a3 : FVec Ideal Cert.ReferenceIdeal.S100000x192 .f32) (a4 : FVec Ideal Cert.ReferenceIdeal.S192x128 .f32) :
    FVec Ideal Cert.ReferenceIdeal.S100000x128 .f32 :=
  open Cert.ReferenceIdeal Cert.ReferenceIdeal.Gen in
  Host.dotGeneral dot_S100000x192_S192x128_S100000x128_1_0_0_1_n_n none
    (Host.scatterAdd scatter_S100000x192_S400000x1_S400000x192_1_0_0_1
      (broadcastInDim S100000x192 ![] bcast_S_S100000x192 (constant S_ .f32 0x00000000#32))
      (broadcastInDim S400000x1 ![0] bcast_S400000_S400000x1_0 a0)
      (mulf (broadcastInDim S400000x192 ![0, 1] bcast_S400000x1_S400000x192_0_1
          (broadcastInDim S400000x1 ![0] bcast_S400000_S400000x1_0 a2))
        (Host.gather gather_S100000x192_S400000x1_S400000x192_1_0_n_n_0_1_1192 a3
          (broadcastInDim S400000x1 ![0] bcast_S400000_S400000x1_0
            (select (cmpi .slt a1 (broadcastInDim S400000 ![] bcast_S_S400000 (constantI S_ 32 0#32)))
              (addi a1 (broadcastInDim S400000 ![] bcast_S_S400000 (constantI S_ 32 100000#32))) a1)))))
    a4

/-- The kernel's result at (r, q): over the nonzeros targeting r, the weight times row (source) of x against
    column q of theta. -/
theorem kernel_apply (a0 a1 : IVec ⟨1, ![400000]⟩ 32) (a2 : FVec Ideal ⟨1, ![400000]⟩ .f32)
    (a3 : FVec Ideal ⟨2, ![100000, 192]⟩ .f32) (a4 : FVec Ideal ⟨2, ![192, 128]⟩ .f32) (r : Fin 100000) (q : Fin 128) :
    Cert.KernelIdeal.Whole.sparseApply a0 a1 a2 (Cert.KernelIdeal.Dense.product a3 a4) (ix2 r q)
      = 0 + ∑ e : Fin 400000, if (a0 (ix1 e)).toInt = (r.val : Int)
          then a2 (ix1 e) * ∑ l : Fin 192, a3 (ix2 (src a1 e) l) * a4 (ix2 l q) else 0 := by
  unfold Cert.KernelIdeal.Whole.sparseApply
  exact SparseRows.sparse_rows_apply (N := 100000) (E := 400000) (C := 128) (by decide)
    _ ⟨rfl, rfl, rfl, rfl, rfl, rfl, rfl⟩ _ ⟨rfl, rfl, rfl, rfl⟩ _ _ _ _ 0#32 100000#32 a0 a1 a2
    (Cert.KernelIdeal.Dense.product a3 a4) r q

/-- The reference's result at (r, q): over the contraction positions l, the accumulated weighted entries of
    column l of x (over the nonzeros targeting r) against theta (l, q). -/
theorem reference_apply (a0 a1 : IVec ⟨1, ![400000]⟩ 32) (a2 : FVec Ideal ⟨1, ![400000]⟩ .f32)
    (a3 : FVec Ideal ⟨2, ![100000, 192]⟩ .f32) (a4 : FVec Ideal ⟨2, ![192, 128]⟩ .f32) (r : Fin 100000) (q : Fin 128) :
    refResult a0 a1 a2 a3 a4 (ix2 r q)
      = ∑ l : Fin 192, (0 + ∑ e : Fin 400000, if (a0 (ix1 e)).toInt = (r.val : Int)
          then a2 (ix1 e) * a3 (ix2 (src a1 e) l) else 0) * a4 (ix2 l q) := by
  unfold refResult
  refine (Cert.LibPlainDot.dotGeneral_apply (M := 100000) (K := 192) (N := 128) none .single _ a4 r q).trans ?_
  refine Finset.sum_congr rfl fun l _ => ?_
  exact congrArg (fun s => s * a4 (ix2 l q))
    (SparseRows.sparse_rows_apply (N := 100000) (E := 400000) (C := 192) (by decide)
      _ ⟨rfl, rfl, rfl, rfl, rfl, rfl, rfl⟩ _ ⟨rfl, rfl, rfl, rfl⟩ _ _ _ _ 0#32 100000#32 a0 a1 a2 a3 r l)

/-- ONE FUNCTION: at real weights and real entries of x and theta, the kernel's result array is the reference's. -/
theorem result_eq (a0 a1 : IVec ⟨1, ![400000]⟩ 32) (a2 : FVec Ideal ⟨1, ![400000]⟩ .f32)
    (a3 : FVec Ideal ⟨2, ![100000, 192]⟩ .f32) (a4 : FVec Ideal ⟨2, ![192, 128]⟩ .f32)
    (h2 : ∀ i, ∃ x : ℝ, a2 i = (x : EReal)) (h3 : ∀ i, ∃ x : ℝ, a3 i = (x : EReal))
    (h4 : ∀ i, ∃ x : ℝ, a4 i = (x : EReal)) :
    Cert.KernelIdeal.Whole.sparseApply a0 a1 a2 (Cert.KernelIdeal.Dense.product a3 a4) = refResult a0 a1 a2 a3 a4 := by
  funext i
  obtain ⟨r, q, rfl⟩ : ∃ (r : Fin 100000) (q : Fin 128), i = ix2 r q := ⟨i 0, i 1, eq_ix2 i⟩
  rw [kernel_apply, reference_apply]
  exact SparseAssoc.sum_rows_mul_assoc (fun e : Fin 400000 => (a0 (ix1 e)).toInt = (r.val : Int))
    (fun e => a2 (ix1 e)) (fun e l => a3 (ix2 (src a1 e) l)) (fun l => a4 (ix2 l q))
    (fun e => h2 _) (fun e l => h3 _) (fun l => h4 _)

end Cert.Bridge

end
-- ==== Proof.Finite.lean ====
import proofs.«139553_j69810398429356_1_alg».proof.Pre_finite_inputs
import Idealize.ShloMosaic.PureOps.Ideal
import Idealize.ShloMosaic.Lib.ReduceAll
import Idealize.ShloMosaic.Lib.ValueIdx

/-! The precondition says that every weight, every entry of x and every entry of theta is a real number.

The precondition compares the absolute value of each float entry with plus infinity, reduces each comparison by
"and" over all axes, and joins the three results by "and". Over the extended reals the absolute value of an entry
is below plus infinity exactly when the entry is neither infinity, that is, a real number. -/

noncomputable section

namespace Cert.FiniteArgs

open Idealize.ShloMosaic Cert.Pre_finite_inputs

/-- The word the precondition compares with denotes plus infinity. -/
theorem inf_word : Ideal.ofBits .f32 0x7F800000#32 = (⊤ : EReal) := by
  simp [Ideal.ofBits, Ideal.ieee]

/-- An extended real whose absolute value compares below plus infinity is a real number. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    have : Ideal.cmp .olt (max x (-x)) ⊤ = 0#1 := by
      unfold Ideal.cmp
      simp only [decide_eq_false hn]
      rfl
    rw [this] at h
    exact absurd h (by decide)
  induction x using EReal.rec with
  | bot => exact absurd hlt (by simp)
  | coe r => exact ⟨r, rfl⟩
  | top => exact absurd hlt (by simp)

instance : Subsingleton S_.Idx := ⟨fun a b => funext fun d => d.elim0⟩

/-- Under the precondition every entry of the three float arguments is a real number. -/
theorem real_of_pre [Facts] (a0 a1 : IVec S400000 32) (a2 : FVec Ideal S400000 .f32)
    (a3 : FVec Ideal S100000x192 .f32) (a4 : FVec Ideal S192x128 .f32)
    (h : fn (F := Ideal) a0 a1 a2 a3 a4 = fun _ => 1#1) :
    (∀ i, ∃ r : ℝ, a2 i = (r : EReal)) ∧ (∀ i, ∃ r : ℝ, a3 i = (r : EReal)) ∧ (∀ i, ∃ r : ℝ, a4 i = (r : EReal)) := by
  have h0 := congrFun h ValueIdx.ix0
  dsimp only [fn] at h0
  change IntOp.andi (IntOp.andi _ _) _ = 1#1 at h0
  rw [IntOp.andi_eq_one, IntOp.andi_eq_one] at h0
  obtain ⟨⟨h2, h3⟩, h4⟩ := h0
  refine ⟨fun i => ?_, fun i => ?_, fun i => ?_⟩
  · exact real_of_abs_lt_inf _ (Host.reduce_andi_all _ _ _ _ _ h2 i)
  · exact real_of_abs_lt_inf _ (Host.reduce_andi_all _ _ _ _ _ h3 i)
  · exact real_of_abs_lt_inf _ (Host.reduce_andi_all _ _ _ _ _ h4 i)

end Cert.FiniteArgs

end
-- ==== Proof.lean ====
/- The kernel computes L · (x · theta) and the reference (L · x) · theta, for the sparse matrix L given by its 400000
   nonzeros (target row, source row, weight): sparse-times-dense associativity, which holds over the extended reals
   once every weight and every entry of x and theta is a real number — what the precondition says.

   The kernel's tiled region leaves the dense product x · theta in its output array (Proof/RegionProduct.lean: the 25
   row blocks, each a plain sum over the 192 contraction positions); the host lines after it apply L to that array
   (Proof/KernelRun.lean). The reference's run is its sixteen host operations composed. Both results are read at an
   entry (r, q) as sums over the nonzeros targeting row r (Proof/LibSparseRows.lean over Proof/LibEdgeSum.lean, and
   Proof/LibPlainDot.lean for the two products), and the two sums are rearrangements of one finite sum of real
   products (Proof/LibSparseAssoc.lean, Proof/Bridge.lean); Proof/Finite.lean reads the precondition as "every float
   entry is a real number". Each frame is the program's run with the result forgotten; the idealization rewrote no
   operation, so there is nothing to preserve. -/
import proofs.«139553_j69810398429356_1_alg».proof.Defs
import proofs.«139553_j69810398429356_1_alg».proof.Proof.Gen.Kernel
import proofs.«139553_j69810398429356_1_alg».proof.Proof.Gen.Kernel.Skeleton
import proofs.«139553_j69810398429356_1_alg».proof.Proof.Gen.Kernel.Launch
import proofs.«139553_j69810398429356_1_alg».proof.Proof.Gen.Kernel.Points
import proofs.«139553_j69810398429356_1_alg».proof.Proof.Gen.Kernel.Frame
import proofs.«139553_j69810398429356_1_alg».proof.Proof.Gen.KernelIdeal
import proofs.«139553_j69810398429356_1_alg».proof.Proof.Gen.KernelIdeal.Skeleton
import proofs.«139553_j69810398429356_1_alg».proof.Proof.Gen.KernelIdeal.Launch
import proofs.«139553_j69810398429356_1_alg».proof.Proof.Gen.KernelIdeal.Points
import proofs.«139553_j69810398429356_1_alg».proof.Proof.Gen.KernelIdeal.Frame
import proofs.«139553_j69810398429356_1_alg».proof.Proof.Gen.ReferenceIdeal
import proofs.«139553_j69810398429356_1_alg».proof.Proof.Gen.Pre_finite_inputs
import proofs.«139553_j69810398429356_1_alg».proof.Proof.Gen.ReferenceIdeal.Run
import proofs.«139553_j69810398429356_1_alg».proof.Proof.KernelRun
import proofs.«139553_j69810398429356_1_alg».proof.Proof.Bridge
import proofs.«139553_j69810398429356_1_alg».proof.Proof.Finite
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the sparse matrix applied to x and theta, in either order of the two
    products: equal arrays, because the precondition makes every float entry a real number. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4⟩ := hagree c
  obtain ⟨h2, h3, h4⟩ := Cert.FiniteArgs.real_of_pre _ _ _ _ _ (hpre c)
  rw [g0, g1, g2, g3, g4]
  exact (Cert.Bridge.result_eq _ _ _ _ _ h2 h3 h4).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
